-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x96x96 : Shape := ⟨4, ![8, 128, 96, 96]⟩
abbrev S8x1152x96x96 : Shape := ⟨4, ![8, 1152, 96, 96]⟩
abbrev S_ : Shape := ⟨0, ![]⟩

class Facts : Prop where
  bcast_S_S8x128x96x96 : S_.BroadcastsInDim S8x128x96x96 (![] : Fin 0 → Fin S8x128x96x96.rank)
  reducesTo_S8x128x96x96_S_d0_1_2_3 : S8x128x96x96.ReducesTo [0, 1, 2, 3] S_
  h_S_ : 0 < S_.numel
  bcast_S_S8x1152x96x96 : S_.BroadcastsInDim S8x1152x96x96 (![] : Fin 0 → Fin S8x1152x96x96.rank)
  reducesTo_S8x1152x96x96_S_d0_1_2_3 : S8x1152x96x96.ReducesTo [0, 1, 2, 3] S_

variable [Facts]

def fn {F : FTy → Type} [FloatOps F] (main_arg0 : FVec F S8x128x96x96 .f32) (main_arg1 : FVec F S8x1152x96x96 .f32) : IVec S_ 1 :=
  let main_v0 : FVec F S8x128x96x96 .f32 := Host.absf main_arg0
  let main_cst : FVec F S_ .f32 := constant S_ .f32 0x7F800000#32
  let main_v1 : FVec F S8x128x96x96 .f32 := broadcastInDim S8x128x96x96 ![] bcast_S_S8x128x96x96 main_cst
  let main_v2 : IVec S8x128x96x96 1 := cmpf .olt main_v0 main_v1
  let main_c : IVec S_ 1 := constantI S_ 1 1#1
  let main_v3 : IVec S_ 1 := (fun x v => Host.reduce IntOp.andi x v reducesTo_S8x128x96x96_S_d0_1_2_3 h_S_) main_v2 main_c
  let main_v4 : FVec F S8x1152x96x96 .f32 := Host.absf main_arg1
  let main_cst_0 : FVec F S_ .f32 := constant S_ .f32 0x7F800000#32
  let main_v5 : FVec F S8x1152x96x96 .f32 := broadcastInDim S8x1152x96x96 ![] bcast_S_S8x1152x96x96 main_cst_0
  let main_v6 : IVec S8x1152x96x96 1 := cmpf .olt main_v4 main_v5
  let main_c_1 : IVec S_ 1 := constantI S_ 1 1#1
  let main_v7 : IVec S_ 1 := (fun x v => Host.reduce IntOp.andi x v reducesTo_S8x1152x96x96_S_d0_1_2_3 h_S_) main_v6 main_c_1
  let main_v8 : IVec S_ 1 := andi main_v3 main_v7
  main_v8
-- ==== Kernel.lean ====
abbrev S8x128x96x96 : Shape := ⟨4, ![8, 128, 96, 96]⟩
abbrev S8x1152x96x96 : Shape := ⟨4, ![8, 1152, 96, 96]⟩
abbrev S_ : Shape := ⟨0, ![]⟩
abbrev S8x128x98x98 : Shape := ⟨4, ![8, 128, 98, 98]⟩
abbrev S1x32x98x98 : Shape := ⟨4, ![1, 32, 98, 98]⟩
abbrev S1x288x96x96 : Shape := ⟨4, ![1, 288, 96, 96]⟩
abbrev S1x32x96x96 : Shape := ⟨4, ![1, 32, 96, 96]⟩
abbrev S1x32x9x96x96 : Shape := ⟨5, ![1, 32, 9, 96, 96]⟩
abbrev S1x32x1x96x96 : Shape := ⟨5, ![1, 32, 1, 96, 96]⟩

abbrev nBuf : Space → Nat
  | .hbm => 6
  | .vmem => 6
  | .smem => 0
  | _ => 0

abbrev bufTy : (tb : Table) → Fin (tcTables nBuf tb) → BufTy
  | .hbm, ⟨0, _⟩ => ⟨S8x128x96x96, .f32⟩
  | .hbm, ⟨1, _⟩ => ⟨S8x1152x96x96, .f32⟩
  | .hbm, ⟨2, _⟩ => ⟨S_, .i32⟩
  | .hbm, ⟨3, _⟩ => ⟨S_, .f32⟩
  | .hbm, ⟨4, _⟩ => ⟨S8x128x98x98, .f32⟩
  | .hbm, ⟨5, _⟩ => ⟨S8x128x96x96, .f32⟩
  | .local _ .vmem, ⟨0, _⟩ => ⟨S1x32x98x98, .f32⟩
  | .local _ .vmem, ⟨1, _⟩ => ⟨S1x32x98x98, .f32⟩
  | .local _ .vmem, ⟨2, _⟩ => ⟨S1x288x96x96, .f32⟩
  | .local _ .vmem, ⟨3, _⟩ => ⟨S1x288x96x96, .f32⟩
  | .local _ .vmem, ⟨4, _⟩ => ⟨S1x32x96x96, .f32⟩
  | .local _ .vmem, ⟨5, _⟩ => ⟨S1x32x96x96, .f32⟩
  | _, _ => ⟨S8x128x96x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x32x98x98 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x288x96x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x96x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  pads_S8x128x96x96_S8x128x98x98_000_000_110_110 : S8x128x96x96.Pads (![0, 0, 1, 1] : Fin 4 → Nat) ![0, 0, 1, 1] ![0, 0, 0, 0] S8x128x98x98
  h_S_ : 0 < S_.numel
  inb_S1x288x96x96_S1x288x96x96_0_0_0_0 : ∀ a, (![0, 0, 0, 0] : Fin 4 → Nat) a + S1x288x96x96.size a ≤ S1x288x96x96.size a
  h_S1x288x96x96 : 0 < S1x288x96x96.numel
  shapeCasts_S1x288x96x96_S1x32x9x96x96 : S1x288x96x96.ShapeCasts S1x32x9x96x96
  inb_S1x32x98x98_S1x32x98x98_0_0_0_0 : ∀ a, (![0, 0, 0, 0] : Fin 4 → Nat) a + S1x32x98x98.size a ≤ S1x32x98x98.size a
  h_S1x32x98x98 : 0 < S1x32x98x98.numel
  shapeCasts_S1x32x98x98_S1x32x98x98 : S1x32x98x98.ShapeCasts S1x32x98x98
  slices_S1x32x9x96x96_o0_0_0_0_0_S1x32x1x96x96 : S1x32x9x96x96.Slices ![0, 0, 0, 0, 0] S1x32x1x96x96
  shapeCasts_S1x32x1x96x96_S1x32x96x96 : S1x32x1x96x96.ShapeCasts S1x32x96x96
  slices_S1x32x98x98_o0_0_0_0_S1x32x96x96 : S1x32x98x98.Slices ![0, 0, 0, 0] S1x32x96x96
  slices_S1x32x9x96x96_o0_0_1_0_0_S1x32x1x96x96 : S1x32x9x96x96.Slices ![0, 0, 1, 0, 0] S1x32x1x96x96
  slices_S1x32x98x98_o0_0_0_1_S1x32x96x96 : S1x32x98x98.Slices ![0, 0, 0, 1] S1x32x96x96
  slices_S1x32x9x96x96_o0_0_2_0_0_S1x32x1x96x96 : S1x32x9x96x96.Slices ![0, 0, 2, 0, 0] S1x32x1x96x96
  slices_S1x32x98x98_o0_0_0_2_S1x32x96x96 : S1x32x98x98.Slices ![0, 0, 0, 2] S1x32x96x96
  slices_S1x32x9x96x96_o0_0_3_0_0_S1x32x1x96x96 : S1x32x9x96x96.Slices ![0, 0, 3, 0, 0] S1x32x1x96x96
  slices_S1x32x98x98_o0_0_1_0_S1x32x96x96 : S1x32x98x98.Slices ![0, 0, 1, 0] S1x32x96x96
  slices_S1x32x9x96x96_o0_0_4_0_0_S1x32x1x96x96 : S1x32x9x96x96.Slices ![0, 0, 4, 0, 0] S1x32x1x96x96
  slices_S1x32x98x98_o0_0_1_1_S1x32x96x96 : S1x32x98x98.Slices ![0, 0, 1, 1] S1x32x96x96
  slices_S1x32x9x96x96_o0_0_5_0_0_S1x32x1x96x96 : S1x32x9x96x96.Slices ![0, 0, 5, 0, 0] S1x32x1x96x96
  slices_S1x32x98x98_o0_0_1_2_S1x32x96x96 : S1x32x98x98.Slices ![0, 0, 1, 2] S1x32x96x96
  slices_S1x32x9x96x96_o0_0_6_0_0_S1x32x1x96x96 : S1x32x9x96x96.Slices ![0, 0, 6, 0, 0] S1x32x1x96x96
  slices_S1x32x98x98_o0_0_2_0_S1x32x96x96 : S1x32x98x98.Slices ![0, 0, 2, 0] S1x32x96x96
  slices_S1x32x9x96x96_o0_0_7_0_0_S1x32x1x96x96 : S1x32x9x96x96.Slices ![0, 0, 7, 0, 0] S1x32x1x96x96
  slices_S1x32x98x98_o0_0_2_1_S1x32x96x96 : S1x32x98x98.Slices ![0, 0, 2, 1] S1x32x96x96
  slices_S1x32x9x96x96_o0_0_8_0_0_S1x32x1x96x96 : S1x32x9x96x96.Slices ![0, 0, 8, 0, 0] S1x32x1x96x96
  slices_S1x32x98x98_o0_0_2_2_S1x32x96x96 : S1x32x98x98.Slices ![0, 0, 2, 2] S1x32x96x96
  inb_S1x32x96x96_S1x32x96x96_0_0_0_0 : ∀ a, (![0, 0, 0, 0] : Fin 4 → Nat) a + S1x32x96x96.size a ≤ S1x32x96x96.size a
  h_S1x32x96x96 : 0 < S1x32x96x96.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x98x98.size a ≤ S8x128x98x98.size a
  hwx0_0 : ∀ i : grid0.Coords, EltTy.bits .f32 = 32 ∨ (Rect.block (s := S8x128x98x98) S1x32x98x98.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x288x96x96.size a ≤ S8x1152x96x96.size a
  hwx0_1 : ∀ i : grid0.Coords, EltTy.bits .f32 = 32 ∨ (Rect.block (s := S8x1152x96x96) S1x288x96x96.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x96x96.size a ≤ S8x128x96x96.size a
  hwx0_2 : ∀ i : grid0.Coords, EltTy.bits .f32 = 32 ∨ (Rect.block (s := S8x128x96x96) S1x32x96x96.size (cc0_transform_2 i) (hinb0_2 i)).WholeWords (EltTy.packing .f32)

variable [Facts₀]

abbrev win0_0 : Pipeline.Window sig grid0 :=
  Pipeline.Window.ofSpec (Memref.whole main_v0) S1x32x98x98.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x288x96x96.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x32x96x96.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x128x96x96 : Shape := ⟨4, ![8, 128, 96, 96]⟩
abbrev S8x1152x96x96 : Shape := ⟨4, ![8, 1152, 96, 96]⟩
abbrev S8x128x9x96x96 : Shape := ⟨5, ![8, 128, 9, 96, 96]⟩
abbrev S_ : Shape := ⟨0, ![]⟩
abbrev S8x128x98x98 : Shape := ⟨4, ![8, 128, 98, 98]⟩
abbrev S8x128x1x96x96 : Shape := ⟨5, ![8, 128, 1, 96, 96]⟩

abbrev nBuf : Space → Nat
  | .hbm => 53
  | .vmem => 0
  | .smem => 0
  | _ => 0

abbrev bufTy : (tb : Table) → Fin (tcTables nBuf tb) → BufTy
  | .hbm, ⟨0, _⟩ => ⟨S8x128x96x96, .f32⟩
  | .hbm, ⟨1, _⟩ => ⟨S8x1152x96x96, .f32⟩
  | .hbm, ⟨2, _⟩ => ⟨S8x128x9x96x96, .f32⟩
  | .hbm, ⟨3, _⟩ => ⟨S_, .i32⟩
  | .hbm, ⟨4, _⟩ => ⟨S_, .f32⟩
  | .hbm, ⟨5, _⟩ => ⟨S8x128x98x98, .f32⟩
  | .hbm, ⟨6, _⟩ => ⟨S_, .f32⟩
  | .hbm, ⟨7, _⟩ => ⟨S8x128x96x96, .f32⟩
  | .hbm, ⟨8, _⟩ => ⟨S8x128x1x96x96, .f32⟩
  | .hbm, ⟨9, _⟩ => ⟨S8x128x96x96, .f32⟩
  | .hbm, ⟨10, _⟩ => ⟨S8x128x96x96, .f32⟩
  | .hbm, ⟨11, _⟩ => ⟨S8x128x96x96, .f32⟩
  | .hbm, ⟨12, _⟩ => ⟨S8x128x96x96, .f32⟩
  | .hbm, ⟨13, _⟩ => ⟨S8x128x1x96x96, .f32⟩
  | .hbm, ⟨14, _⟩ => ⟨S8x128x96x96, .f32⟩
  | .hbm, ⟨15, _⟩ => ⟨S8x128x96x96, .f32⟩
  | .hbm, ⟨16, _⟩ => ⟨S8x128x96x96, .f32⟩
  | .hbm, ⟨17, _⟩ => ⟨S8x128x96x96, .f32⟩
  | .hbm, ⟨18, _⟩ => ⟨S8x128x1x96x96, .f32⟩
  | .hbm, ⟨19, _⟩ => ⟨S8x128x96x96, .f32⟩
  | .hbm, ⟨20, _⟩ => ⟨S8x128x96x96, .f32⟩
  | .hbm, ⟨21, _⟩ => ⟨S8x128x96x96, .f32⟩
  | .hbm, ⟨22, _⟩ => ⟨S8x128x96x96, .f32⟩
  | .hbm, ⟨23, _⟩ => ⟨S8x128x1x96x96, .f32⟩
  | .hbm, ⟨24, _⟩ => ⟨S8x128x96x96, .f32⟩
  | .hbm, ⟨25, _⟩ => ⟨S8x128x96x96, .f32⟩
  | .hbm, ⟨26, _⟩ => ⟨S8x128x96x96, .f32⟩
  | .hbm, ⟨27, _⟩ => ⟨S8x128x96x96, .f32⟩
  | .hbm, ⟨28, _⟩ => ⟨S8x128x1x96x96, .f32⟩
  | .hbm, ⟨29, _⟩ => ⟨S8x128x96x96, .f32⟩
  | .hbm, ⟨30, _⟩ => ⟨S8x128x96x96, .f32⟩
  | .hbm, ⟨31, _⟩ => ⟨S8x128x96x96, .f32⟩
  | .hbm, ⟨32, _⟩ => ⟨S8x128x96x96, .f32⟩
  | .hbm, ⟨33, _⟩ => ⟨S8x128x1x96x96, .f32⟩
  | .hbm, ⟨34, _⟩ => ⟨S8x128x96x96, .f32⟩
  | .hbm, ⟨35, _⟩ => ⟨S8x128x96x96, .f32⟩
  | .hbm, ⟨36, _⟩ => ⟨S8x128x96x96, .f32⟩
  | .hbm, ⟨37, _⟩ => ⟨S8x128x96x96, .f32⟩
  | .hbm, ⟨38, _⟩ => ⟨S8x128x1x96x96, .f32⟩
  | .hbm, ⟨39, _⟩ => ⟨S8x128x96x96, .f32⟩
  | .hbm, ⟨40, _⟩ => ⟨S8x128x96x96, .f32⟩
  | .hbm, ⟨41, _⟩ => ⟨S8x128x96x96, .f32⟩
  | .hbm, ⟨42, _⟩ => ⟨S8x128x96x96, .f32⟩
  | .hbm, ⟨43, _⟩ => ⟨S8x128x1x96x96, .f32⟩
  | .hbm, ⟨44, _⟩ => ⟨S8x128x96x96, .f32⟩
  | .hbm, ⟨45, _⟩ => ⟨S8x128x96x96, .f32⟩
  | .hbm, ⟨46, _⟩ => ⟨S8x128x96x96, .f32⟩
  | .hbm, ⟨47, _⟩ => ⟨S8x128x96x96, .f32⟩
  | .hbm, ⟨48, _⟩ => ⟨S8x128x1x96x96, .f32⟩
  | .hbm, ⟨49, _⟩ => ⟨S8x128x96x96, .f32⟩
  | .hbm, ⟨50, _⟩ => ⟨S8x128x96x96, .f32⟩
  | .hbm, ⟨51, _⟩ => ⟨S8x128x96x96, .f32⟩
  | .hbm, ⟨52, _⟩ => ⟨S8x128x96x96, .f32⟩
  | _, _ => ⟨S8x128x96x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩

abbrev nD : Nat := 1
abbrev τ : Topo := Topo.v7x

variable {F : FTy → Type} [FloatOps F]

class Facts₀ : Prop where
  shapeCasts_S8x1152x96x96_S8x128x9x96x96 : S8x1152x96x96.ShapeCasts S8x128x9x96x96
  pads_S8x128x96x96_S8x128x98x98_000_000_110_110 : S8x128x96x96.Pads (![0, 0, 1, 1] : Fin 4 → Nat) ![0, 0, 1, 1] ![0, 0, 0, 0] S8x128x98x98
  h_S_ : 0 < S_.numel
  bcast_S_S8x128x96x96 : S_.BroadcastsInDim S8x128x96x96 (![] : Fin 0 → Fin S8x128x96x96.rank)
  slices_S8x128x9x96x96_S8x128x1x96x96_0_0_0_0_0 : S8x128x9x96x96.Slices ![0, 0, 0, 0, 0] S8x128x1x96x96
  shapeCasts_S8x128x1x96x96_S8x128x96x96 : S8x128x1x96x96.ShapeCasts S8x128x96x96
  slices_S8x128x98x98_S8x128x96x96_0_0_0_0 : S8x128x98x98.Slices ![0, 0, 0, 0] S8x128x96x96
  slices_S8x128x9x96x96_S8x128x1x96x96_0_0_1_0_0 : S8x128x9x96x96.Slices ![0, 0, 1, 0, 0] S8x128x1x96x96
  slices_S8x128x98x98_S8x128x96x96_0_0_0_1 : S8x128x98x98.Slices ![0, 0, 0, 1] S8x128x96x96
  slices_S8x128x9x96x96_S8x128x1x96x96_0_0_2_0_0 : S8x128x9x96x96.Slices ![0, 0, 2, 0, 0] S8x128x1x96x96
  slices_S8x128x98x98_S8x128x96x96_0_0_0_2 : S8x128x98x98.Slices ![0, 0, 0, 2] S8x128x96x96
  slices_S8x128x9x96x96_S8x128x1x96x96_0_0_3_0_0 : S8x128x9x96x96.Slices ![0, 0, 3, 0, 0] S8x128x1x96x96
  slices_S8x128x98x98_S8x128x96x96_0_0_1_0 : S8x128x98x98.Slices ![0, 0, 1, 0] S8x128x96x96
  slices_S8x128x9x96x96_S8x128x1x96x96_0_0_4_0_0 : S8x128x9x96x96.Slices ![0, 0, 4, 0, 0] S8x128x1x96x96
  slices_S8x128x98x98_S8x128x96x96_0_0_1_1 : S8x128x98x98.Slices ![0, 0, 1, 1] S8x128x96x96
  slices_S8x128x9x96x96_S8x128x1x96x96_0_0_5_0_0 : S8x128x9x96x96.Slices ![0, 0, 5, 0, 0] S8x128x1x96x96
  slices_S8x128x98x98_S8x128x96x96_0_0_1_2 : S8x128x98x98.Slices ![0, 0, 1, 2] S8x128x96x96
  slices_S8x128x9x96x96_S8x128x1x96x96_0_0_6_0_0 : S8x128x9x96x96.Slices ![0, 0, 6, 0, 0] S8x128x1x96x96
  slices_S8x128x98x98_S8x128x96x96_0_0_2_0 : S8x128x98x98.Slices ![0, 0, 2, 0] S8x128x96x96
  slices_S8x128x9x96x96_S8x128x1x96x96_0_0_7_0_0 : S8x128x9x96x96.Slices ![0, 0, 7, 0, 0] S8x128x1x96x96
  slices_S8x128x98x98_S8x128x96x96_0_0_2_1 : S8x128x98x98.Slices ![0, 0, 2, 1] S8x128x96x96
  slices_S8x128x9x96x96_S8x128x1x96x96_0_0_8_0_0 : S8x128x9x96x96.Slices ![0, 0, 8, 0, 0] S8x128x1x96x96
  slices_S8x128x98x98_S8x128x96x96_0_0_2_2 : S8x128x98x98.Slices ![0, 0, 2, 2] S8x128x96x96

variable [Facts₀]

class Facts : Prop extends Facts₀ where

variable [Facts]
-- ==== Proof.Taps.lean ====
/-
  A depthwise 3×3 convolution with per-pixel weights, as arithmetic on one output element, and the two array
  readings it is built from. Everything is stated for any batch extent N and channel extent C, so that one set of
  lemmas reads a whole [8, 128, ·, ·] array and a [1, 32, ·, ·] block of it.

  The weights are an array [N, 9C, 96, 96], tap-minor within a channel: tap k of channel c is row 9c + k of the
  second axis. The input is already padded by one pixel on every side of the image, [N, C, 98, 98], so tap
  k = 3·di + dj of output pixel (h, w) multiplies the padded pixel (h + di, w + dj). The nine products are added
  one after the other, tap 0 first, onto the zero word:

      out(n, c, h, w) = ((…((0 + W(n, 9c, h, w)·X(n, c, h, w)) + W(n, 9c+1, h, w)·X(n, c, h, w+1)) + …)
                            + W(n, 9c+8, h, w)·X(n, c, h+2, w+2)).

  No law of arithmetic is used: both programs add the same nine products in the same order, so the statements hold
  for every float instance.
-/
import Idealize.ShloMosaic.Lib.ValueIdx
import Idealize.ShloMosaic.Lib.Pipeline.Value
import Mathlib.Tactic.Ring

noncomputable section

namespace Cert.DepthConv

open Idealize.ShloMosaic Idealize.ShloMosaic.ValueIdx

section Sum
variable {F : FTy → Type} [FloatOps F]

/-- Nine products added from left to right onto the zero word: ((…((0 + a₀·b₀) + a₁·b₁) + …) + a₈·b₈). -/
def tapSum (a b : Fin 9 → F .f32) : F .f32 :=
  FloatOps.addf (FloatOps.addf (FloatOps.addf (FloatOps.addf (FloatOps.addf (FloatOps.addf (FloatOps.addf (FloatOps.addf (FloatOps.addf
    (FloatOps.ofBits .f32 0x00000000#32)
    (FloatOps.mulf (a 0) (b 0))) (FloatOps.mulf (a 1) (b 1))) (FloatOps.mulf (a 2) (b 2))) (FloatOps.mulf (a 3) (b 3)))
    (FloatOps.mulf (a 4) (b 4))) (FloatOps.mulf (a 5) (b 5))) (FloatOps.mulf (a 6) (b 6))) (FloatOps.mulf (a 7) (b 7)))
    (FloatOps.mulf (a 8) (b 8))

/-- The sum depends only on the eighteen factors. -/
theorem tapSum_congr {a a' b b' : Fin 9 → F .f32} (ha : ∀ k, a k = a' k) (hb : ∀ k, b k = b' k) :
    tapSum a b = tapSum a' b' := by
  rw [funext ha, funext hb]

/-- A left-nested sum of nine products onto a start value is `tapSum` once the start value is the zero word and the
    factors are the families' values. -/
theorem tapSum_of (a b : Fin 9 → F .f32) {z a0 b0 a1 b1 a2 b2 a3 b3 a4 b4 a5 b5 a6 b6 a7 b7 a8 b8 : F .f32}
    (hz : z = FloatOps.ofBits .f32 0x00000000#32)
    (h0 : a0 = a 0) (g0 : b0 = b 0) (h1 : a1 = a 1) (g1 : b1 = b 1) (h2 : a2 = a 2) (g2 : b2 = b 2)
    (h3 : a3 = a 3) (g3 : b3 = b 3) (h4 : a4 = a 4) (g4 : b4 = b 4) (h5 : a5 = a 5) (g5 : b5 = b 5)
    (h6 : a6 = a 6) (g6 : b6 = b 6) (h7 : a7 = a 7) (g7 : b7 = b 7) (h8 : a8 = a 8) (g8 : b8 = b 8) :
    FloatOps.addf (FloatOps.addf (FloatOps.addf (FloatOps.addf (FloatOps.addf (FloatOps.addf (FloatOps.addf (FloatOps.addf (FloatOps.addf
      z
      (FloatOps.mulf a0 b0)) (FloatOps.mulf a1 b1)) (FloatOps.mulf a2 b2)) (FloatOps.mulf a3 b3))
      (FloatOps.mulf a4 b4)) (FloatOps.mulf a5 b5)) (FloatOps.mulf a6 b6)) (FloatOps.mulf a7 b7))
      (FloatOps.mulf a8 b8) = tapSum a b := by
  subst hz h0 g0 h1 g1 h2 g2 h3 g3 h4 g4 h5 g5 h6 g6 h7 g7 h8 g8
  rfl

end Sum

section Spec
variable {F : FTy → Type} [FloatOps F] {N C K : Nat}

/-- One output element of the convolution, from the padded input `xp` and the weights `wt`: tap k reads weight row
    9c + k at the pixel and the padded input at (h + k / 3, w + k % 3). -/
def depthConvAt (hK : K = C * 9) (xp : (⟨4, ![N, C, 98, 98]⟩ : Shape).Idx → F .f32)
    (wt : (⟨4, ![N, K, 96, 96]⟩ : Shape).Idx → F .f32) (n : Fin N) (c : Fin C) (h w : Fin 96) : F .f32 :=
  tapSum (fun k => wt (ix4 n ⟨c.val * 9 + k.val, by have := c.isLt; have := k.isLt; omega⟩ h w))
    (fun k => xp (ix4 n c ⟨h.val + k.val / 3, by have := h.isLt; have := k.isLt; omega⟩
      ⟨w.val + k.val % 3, by have := w.isLt; omega⟩))

/-- The convolution as one array. -/
def depthConv (hK : K = C * 9) (xp : (⟨4, ![N, C, 98, 98]⟩ : Shape).Idx → F .f32)
    (wt : (⟨4, ![N, K, 96, 96]⟩ : Shape).Idx → F .f32) : (⟨4, ![N, C, 96, 96]⟩ : Shape).Idx → F .f32 :=
  fun i => depthConvAt hK xp wt (i 0) (i 1) (i 2) (i 3)

/-- An element of the convolution of a block is the element of the convolution of the whole arrays at the pixel the
    block's pixel sits at, as soon as the block's eighteen entries are the whole arrays' entries there. -/
theorem depthConvAt_of_entries {N' C' K' : Nat} (hK : K = C * 9) (hK' : K' = C' * 9)
    (xp : (⟨4, ![N, C, 98, 98]⟩ : Shape).Idx → F .f32) (wt : (⟨4, ![N, K, 96, 96]⟩ : Shape).Idx → F .f32)
    (xb : (⟨4, ![N', C', 98, 98]⟩ : Shape).Idx → F .f32) (wb : (⟨4, ![N', K', 96, 96]⟩ : Shape).Idx → F .f32)
    (n : Fin N) (c : Fin C) (n' : Fin N') (c' : Fin C') (h w : Fin 96)
    (hx : ∀ u v : Fin 98, xb (ix4 n' c' u v) = xp (ix4 n c u v))
    (hw : ∀ k : Fin 9, wb (ix4 n' ⟨c'.val * 9 + k.val, by have := c'.isLt; have := k.isLt; omega⟩ h w)
      = wt (ix4 n ⟨c.val * 9 + k.val, by have := c.isLt; have := k.isLt; omega⟩ h w)) :
    depthConvAt hK' xb wb n' c' h w = depthConvAt hK xp wt n c h w :=
  tapSum_congr hw (fun _ => hx _ _)

end Spec

section Pad
variable {F : FTy → Type} [FloatOps F] {N C : Nat}

/-- The input with a border of one pixel on every side of the image, the border holding the integer 0 converted to
    a float: what the host's pad computes, in the kernel's program and in the reference alike. -/
def padded (x : (⟨4, ![N, C, 96, 96]⟩ : Shape).Idx → F .f32)
    (hp : (⟨4, ![N, C, 96, 96]⟩ : Shape).Pads (![0, 0, 1, 1] : Fin 4 → Nat) ![0, 0, 1, 1] ![0, 0, 0, 0] ⟨4, ![N, C, 98, 98]⟩)
    (h0 : 0 < (⟨0, ![]⟩ : Shape).numel) : (⟨4, ![N, C, 98, 98]⟩ : Shape).Idx → F .f32 :=
  pad ⟨4, ![N, C, 98, 98]⟩ ![0, 0, 1, 1] ![0, 0, 1, 1] ![0, 0, 0, 0] x (sitofp .f32 (constantI ⟨0, ![]⟩ 32 0#32)) hp h0

end Pad

section Layout
variable {α : Type} {N C K : Nat}

/-- Tap k of the weights, taken the way both programs take it — regroup the second axis [N, 9C, 96, 96] →
    [N, C, 9, 96, 96], slice position k of the tap axis, drop that axis — read at (n, c, h, w): weight row 9c + k.
    The three steps keep, shift by k on the tap axis, and keep the row-major position. -/
theorem weightTap (hK : K = C * 9) (v : (⟨4, ![N, K, 96, 96]⟩ : Shape).Idx → α) (k : Nat) (hk : k < 9)
    (hc : (⟨4, ![N, K, 96, 96]⟩ : Shape).ShapeCasts ⟨5, ![N, C, 9, 96, 96]⟩)
    (hs : (⟨5, ![N, C, 9, 96, 96]⟩ : Shape).Slices ![0, 0, k, 0, 0] ⟨5, ![N, C, 1, 96, 96]⟩)
    (hc' : (⟨5, ![N, C, 1, 96, 96]⟩ : Shape).ShapeCasts ⟨4, ![N, C, 96, 96]⟩)
    (n : Fin N) (c : Fin C) (h w : Fin 96) :
    shapeCast ⟨4, ![N, C, 96, 96]⟩ (extractStridedSlice ⟨5, ![N, C, 1, 96, 96]⟩ ![0, 0, k, 0, 0]
        (shapeCast ⟨5, ![N, C, 9, 96, 96]⟩ v hc) hs) hc' (ix4 n c h w)
      = v (ix4 n ⟨c.val * 9 + k, by have := c.isLt; omega⟩ h w) := by
  subst hK
  refine (shapeCast_apply _ hc' (ix4 n c h w) (ix5 n c (0 : Fin 1) h w) ?_).trans ?_
  · rw [Shape.rowMajor_val_five, Shape.rowMajor_val_four]
    show (((n.val * C + c.val) * 1 + 0) * 96 + h.val) * 96 + w.val = ((n.val * C + c.val) * 96 + h.val) * 96 + w.val
    ring
  refine (extractStridedSlice_apply _ _ hs (ix5 n c (0 : Fin 1) h w) (ix5 n c (⟨k, hk⟩ : Fin 9) h w) (fun a => ?_)).trans ?_
  · match a with
    | ⟨0, _⟩ => show n.val = 0 + n.val; omega
    | ⟨1, _⟩ => show c.val = 0 + c.val; omega
    | ⟨2, _⟩ => show k = k + 0; omega
    | ⟨3, _⟩ => show h.val = 0 + h.val; omega
    | ⟨4, _⟩ => show w.val = 0 + w.val; omega
  refine shapeCast_apply v hc _ _ ?_
  rw [Shape.rowMajor_val_four, Shape.rowMajor_val_five]
  show ((n.val * (C * 9) + (c.val * 9 + k)) * 96 + h.val) * 96 + w.val = (((n.val * C + c.val) * 9 + k) * 96 + h.val) * 96 + w.val
  ring

/-- The 96×96 window of the padded input that starts at (di, dj), read at (n, c, h, w): the padded pixel
    (h + di, w + dj). -/
theorem shiftedRead (x : (⟨4, ![N, C, 98, 98]⟩ : Shape).Idx → α) (di dj : Nat) (hdi : di < 3) (hdj : dj < 3)
    (hs : (⟨4, ![N, C, 98, 98]⟩ : Shape).Slices ![0, 0, di, dj] ⟨4, ![N, C, 96, 96]⟩)
    (n : Fin N) (c : Fin C) (h w : Fin 96) :
    extractStridedSlice ⟨4, ![N, C, 96, 96]⟩ ![0, 0, di, dj] x hs (ix4 n c h w)
      = x (ix4 n c ⟨h.val + di, by have := h.isLt; omega⟩ ⟨w.val + dj, by have := w.isLt; omega⟩) :=
  extractStridedSlice_apply _ x hs _ _ fun a => match a with
    | ⟨0, _⟩ => by show n.val = 0 + n.val; omega
    | ⟨1, _⟩ => by show c.val = 0 + c.val; omega
    | ⟨2, _⟩ => by show h.val + di = di + h.val; omega
    | ⟨3, _⟩ => by show w.val + dj = dj + w.val; omega

end Layout

end Cert.DepthConv

end
-- ==== Proof.KernelValue.lean ====
/-
  The kernel's result array is the depthwise convolution of the padded input with the per-pixel weights.

  The grid has 8 × 4 points. Point (b, q) is handed batch b, channels 32q … 32q + 31: the block [1, 32, 98, 98] of
  the padded input, the block [1, 288, 96, 96] of the weights (rows 288q … 288q + 287, that is rows 9c + k of the
  block's channels c), and writes back the block [1, 32, 96, 96] of the result. Inside the block the body does
  what the reference does on the whole arrays: regroup the weight rows by channel and tap, and add the nine
  products tap by tap onto zeros. So at pixel (0, c', h, w) of the block it stores the convolution element of the
  two blocks; weight row 9c' + k of the block is row 9(32q + c') + k of the array, and the padded pixel is the same
  pixel of channel 32q + c': the stored value is the element (b, 32q + c', h, w) of the convolution of the whole
  arrays. The 32 blocks are disjoint and fill the result array, so the array ends as that convolution. Before the
  region the host pads the input, so the array the first window is cut from is the padded input.
-/
import proofs.«176403_j1786706395749_1_alg».proof.Proof.Gen.KernelIdeal.Value
import proofs.«176403_j1786706395749_1_alg».proof.Proof.Taps
import Idealize.ShloMosaic.Lib.StableHlo.Run
import Idealize.ShloMosaic.Lib.Tactic

noncomputable section

namespace Cert.KernelIdeal.ConvValue

open Cert.KernelIdeal Cert.KernelIdeal.Gen Cert.KernelIdeal.Value Idealize.ShloMosaic Idealize.ShloMosaic.TcCoe
open Idealize.SL.Sem Idealize.ShloMosaic.ValueIdx Cert.DepthConv
open Idealize.ShloMosaic.Pipeline (Dat)

variable {F : FTy → Type} [FloatOps F]
variable (m : (ℓ : Loc nD τ sig) → Buf (Elt F) ℓ) (ρ : Dev nD → PrngReg)

theorem zeroOffsets : (![0, 0, 0, 0] : Fin 4 → Nat) = fun _ => 0 := funext fun a => by fin_cases a <;> rfl

/-! ## The body on one pair of blocks -/

/-- What the body stores at pixel (n, c, h, w) of its output block, from the padded-input block `x0` and the weight
    block `x1`: the convolution element of the two blocks. -/
theorem payload_apply (x0 : Vec F S1x32x98x98 .f32) (x1 : Vec F S1x288x96x96 .f32) (n : Fin 1) (c : Fin 32) (h w : Fin 96) :
    k0_pay1 (k0_pay4 x1 x0) (k0_pay5 x1 x0) (ix4 n c h w)
      = depthConvAt (N := 1) (C := 32) (K := 288) rfl x0 x1 n c h w := by
  unfold k0_pay1 k0_pay4 k0_pay5 k0_pay2 k0_pay3
  simp only [shapeCast_self]
  exact tapSum_of _ _ rfl
    (weightTap rfl x1 0 (by omega) _ _ _ n c h w) (shiftedRead x0 0 0 (by omega) (by omega) _ n c h w)
    (weightTap rfl x1 1 (by omega) _ _ _ n c h w) (shiftedRead x0 0 1 (by omega) (by omega) _ n c h w)
    (weightTap rfl x1 2 (by omega) _ _ _ n c h w) (shiftedRead x0 0 2 (by omega) (by omega) _ n c h w)
    (weightTap rfl x1 3 (by omega) _ _ _ n c h w) (shiftedRead x0 1 0 (by omega) (by omega) _ n c h w)
    (weightTap rfl x1 4 (by omega) _ _ _ n c h w) (shiftedRead x0 1 1 (by omega) (by omega) _ n c h w)
    (weightTap rfl x1 5 (by omega) _ _ _ n c h w) (shiftedRead x0 1 2 (by omega) (by omega) _ n c h w)
    (weightTap rfl x1 6 (by omega) _ _ _ n c h w) (shiftedRead x0 2 0 (by omega) (by omega) _ n c h w)
    (weightTap rfl x1 7 (by omega) _ _ _ n c h w) (shiftedRead x0 2 1 (by omega) (by omega) _ n c h w)
    (weightTap rfl x1 8 (by omega) _ _ _ n c h w) (shiftedRead x0 2 2 (by omega) (by omega) _ n c h w)

/-- The convolution element of a pair of blocks is the convolution element of the whole arrays at the pixel the block's
    pixel sits at: when the blocks are batch `b`, channels 32q … 32q + 31 of the padded input and rows 288q … 288q + 287
    of the weights, pixel (n', c', h, w) of the block is pixel (b + n', 32q + c', h, w) of the arrays, and the weight
    row 9(32q + c') + k of the array is row 9c' + k of the block. -/
theorem blockConv (xp : S8x128x98x98.Idx → F .f32) (wt : S8x1152x96x96.Idx → F .f32)
    (xb : S1x32x98x98.Idx → F .f32) (wb : S1x288x96x96.Idx → F .f32) (b q : Nat)
    (hx : ∀ (y : S1x32x98x98.Idx) (i : S8x128x98x98.Idx), (i 0).val = b + (y 0).val → (i 1).val = q * 32 + (y 1).val →
      (i 2).val = (y 2).val → (i 3).val = (y 3).val → xb y = xp i)
    (hw : ∀ (y : S1x288x96x96.Idx) (i : S8x1152x96x96.Idx), (i 0).val = b + (y 0).val → (i 1).val = q * 288 + (y 1).val →
      (i 2).val = (y 2).val → (i 3).val = (y 3).val → wb y = wt i)
    (n' : Fin 1) (c' : Fin 32) (h w : Fin 96) (n : Fin 8) (c : Fin 128) (h₁ w₁ : Fin 96)
    (hn : n.val = b + n'.val) (hc : c.val = q * 32 + c'.val) (hh : h₁.val = h.val) (hw₁ : w₁.val = w.val) :
    depthConvAt (N := 1) (C := 32) (K := 288) rfl xb wb n' c' h w
      = depthConvAt (N := 8) (C := 128) (K := 1152) rfl xp wt n c h₁ w₁ := by
  refine tapSum_congr (fun k => ?_) (fun k => ?_)
  · exact hw _ _ hn (by show c.val * 9 + k.val = q * 288 + (c'.val * 9 + k.val); omega) hh hw₁
  · exact hx _ _ hn hc (by show h₁.val + k.val / 3 = h.val + k.val / 3; omega)
      (by show w₁.val + k.val % 3 = w.val + k.val % 3; omega)

/-! ## The blocks of a grid point -/

/-- The three windows move together: at every point their block indices are (b, q, 0, 0) with b below 8 and q below 4
    (decided over the 32 points). -/
theorem blockIndex : ∀ t : Fin cfg0.N,
    win0_0.index t (0 : Fin 4) = win0_2.index t (0 : Fin 4) ∧ win0_0.index t (1 : Fin 4) = win0_2.index t (1 : Fin 4)
    ∧ win0_0.index t (2 : Fin 4) = 0 ∧ win0_0.index t (3 : Fin 4) = 0
    ∧ win0_1.index t (0 : Fin 4) = win0_2.index t (0 : Fin 4) ∧ win0_1.index t (1 : Fin 4) = win0_2.index t (1 : Fin 4)
    ∧ win0_1.index t (2 : Fin 4) = 0 ∧ win0_1.index t (3 : Fin 4) = 0
    ∧ win0_2.index t (0 : Fin 4) < 8 ∧ win0_2.index t (1 : Fin 4) < 4
    ∧ win0_2.index t (2 : Fin 4) = 0 ∧ win0_2.index t (3 : Fin 4) = 0 :=
  (by decide +kernel : ∀ t : Fin grid0.N, _)

/-- Every (b, q) is some point's block index. -/
theorem blockIndex_onto : ∀ (b : Fin 8) (q : Fin 4), ∃ t : Fin cfg0.N, win0_2.index t = ![b.val, q.val, 0, 0] :=
  (by decide +kernel : ∀ (b : Fin 8) (q : Fin 4), ∃ t : Fin grid0.N, win0_2.index t = ![b.val, q.val, 0, 0])

/-- The padded-input block of point (b, q) at `y` is the padded input at batch b + y₀, channel 32q + y₁, the same pixel. -/
theorem inputBlock_apply (d : Dev nD) (t : Fin cfg0.N) (y : S1x32x98x98.Idx) (i : S8x128x98x98.Idx)
    (h0 : (i 0).val = win0_2.index t (0 : Fin 4) + (y 0).val) (h1 : (i 1).val = win0_2.index t (1 : Fin 4) * 32 + (y 1).val)
    (h2 : (i 2).val = (y 2).val) (h3 : (i 3).val = (y 3).val) :
    (iblk m d 0 t : Vec F S1x32x98x98 .f32) y = (V m d main_v0 : S8x128x98x98.Idx → F .f32) i := by
  obtain ⟨e0, e1, e2, e3, -⟩ := blockIndex t
  unfold iblk
  rw [View.read_apply]
  show V m d main_v0 _ = V m d main_v0 _
  congr 1
  funext a
  apply Fin.ext
  match a with
  | ⟨0, _⟩ => show win0_0.index t (0 : Fin 4) * 1 + 1 * (y 0).val = (i 0).val; omega
  | ⟨1, _⟩ => show win0_0.index t (1 : Fin 4) * 32 + 1 * (y 1).val = (i 1).val; omega
  | ⟨2, _⟩ => show win0_0.index t (2 : Fin 4) * 98 + 1 * (y 2).val = (i 2).val; omega
  | ⟨3, _⟩ => show win0_0.index t (3 : Fin 4) * 98 + 1 * (y 3).val = (i 3).val; omega

/-- The weight block of point (b, q) at `y` is the weights at batch b + y₀, row 288q + y₁, the same pixel. -/
theorem weightBlock_apply (d : Dev nD) (t : Fin cfg0.N) (y : S1x288x96x96.Idx) (i : S8x1152x96x96.Idx)
    (h0 : (i 0).val = win0_2.index t (0 : Fin 4) + (y 0).val) (h1 : (i 1).val = win0_2.index t (1 : Fin 4) * 288 + (y 1).val)
    (h2 : (i 2).val = (y 2).val) (h3 : (i 3).val = (y 3).val) :
    (iblk m d 1 t : Vec F S1x288x96x96 .f32) y = (V m d main_arg1 : S8x1152x96x96.Idx → F .f32) i := by
  obtain ⟨-, -, -, -, e0, e1, e2, e3, -⟩ := blockIndex t
  unfold iblk
  rw [View.read_apply]
  show V m d main_arg1 _ = V m d main_arg1 _
  congr 1
  funext a
  apply Fin.ext
  match a with
  | ⟨0, _⟩ => show win0_1.index t (0 : Fin 4) * 1 + 1 * (y 0).val = (i 0).val; omega
  | ⟨1, _⟩ => show win0_1.index t (1 : Fin 4) * 288 + 1 * (y 1).val = (i 1).val; omega
  | ⟨2, _⟩ => show win0_1.index t (2 : Fin 4) * 96 + 1 * (y 2).val = (i 2).val; omega
  | ⟨3, _⟩ => show win0_1.index t (3 : Fin 4) * 96 + 1 * (y 3).val = (i 3).val; omega

/-! ## What a point writes back -/

/-- Point `t` writes back block `t` of the convolution of the arrays the region finds. -/
theorem flushed_eq (d : Dev nD) (t : Fin cfg0.N) :
    (dats m 0 d).flushed 2 t = ((cfg0.win 2).blk t).view.read (Elt F)
      (depthConv (N := 8) (C := 128) (K := 1152) rfl (V m d main_v0) (V m d main_arg1)) := by
  rw [flushed2]
  unfold out0_2
  rw [View.canon_unit_zero zeroOffsets]
  simp only [View.ld_unit_zero (S := S1x288x96x96) zeroOffsets, View.ld_unit_zero (S := S1x32x98x98) zeroOffsets]
  obtain ⟨-, -, -, -, -, -, -, -, b0, b1, e2, e3⟩ := blockIndex t
  funext (j : S1x32x96x96.Idx)
  obtain ⟨n', c', h, w, rfl⟩ : ∃ (n' : Fin 1) (c' : Fin 32) (h w : Fin 96), j = ix4 n' c' h w :=
    ⟨j 0, j 1, j 2, j 3, eq_ix4 j⟩
  show k0_pay1 (k0_pay4 (iblk m d 1 t) (iblk m d 0 t)) (k0_pay5 (iblk m d 1 t) (iblk m d 0 t)) (ix4 n' c' h w)
    = depthConv (N := 8) (C := 128) (K := 1152) rfl (V m d main_v0) (V m d main_arg1) (((cfg0.win 2).blk t).view.emb (ix4 n' c' h w))
  refine (payload_apply (iblk m d 0 t) (iblk m d 1 t) n' c' h w).trans ?_
  refine blockConv (V m d main_v0) (V m d main_arg1) (iblk m d 0 t) (iblk m d 1 t)
    (win0_2.index t (0 : Fin 4)) (win0_2.index t (1 : Fin 4)) (inputBlock_apply m d t) (weightBlock_apply m d t)
    n' c' h w _ _ _ _ ?_ ?_ ?_ ?_
  · show win0_2.index t (0 : Fin 4) * 1 + 1 * n'.val = win0_2.index t (0 : Fin 4) + n'.val; omega
  · show win0_2.index t (1 : Fin 4) * 32 + 1 * c'.val = win0_2.index t (1 : Fin 4) * 32 + c'.val; omega
  · show win0_2.index t (2 : Fin 4) * 96 + 1 * h.val = h.val; omega
  · show win0_2.index t (3 : Fin 4) * 96 + 1 * w.val = w.val; omega

/-! ## The blocks fill the result array -/

/-- An index of the result array is in point `t`'s block iff each coordinate is in the block's range on its axis. -/
theorem mem_block (t : Fin cfg0.N) (i : S8x128x96x96.Idx) :
    i ∈ ((cfg0.win 2).blk t).view.set ↔ ∀ a : Fin 4, win0_2.index t a * S1x32x96x96.size a ≤ (i a).val
      ∧ (i a).val < win0_2.index t a * S1x32x96x96.size a + S1x32x96x96.size a := by
  show i ∈ ((View.whole main_v1).slice (win0_2.rect t)).set ↔ _
  rw [View.set_slice_whole, Rect.mem_set_unit]
  exact Iff.rfl

/-- Pixel (n, c, h, w) of the result lies in the block of the point with block index (n, c / 32). -/
theorem covered (i : S8x128x96x96.Idx) :
    ∃ t : Fin cfg0.N, (cfg0.win 2).flush t = true ∧ i ∈ ((cfg0.win 2).blk t).view.set := by
  have hi0 : (i 0).val < 8 := (i 0).isLt
  have hi1 : (i 1).val < 128 := (i 1).isLt
  have hi2 : (i 2).val < 96 := (i 2).isLt
  have hi3 : (i 3).val < 96 := (i 3).isLt
  obtain ⟨t, ht⟩ := blockIndex_onto ⟨(i 0).val, hi0⟩ ⟨(i 1).val / 32, by omega⟩
  have q0 : win0_2.index t (0 : Fin 4) = (i 0).val := congrFun ht 0
  have q1 : win0_2.index t (1 : Fin 4) = (i 1).val / 32 := congrFun ht 1
  have q2 : win0_2.index t (2 : Fin 4) = 0 := congrFun ht 2
  have q3 : win0_2.index t (3 : Fin 4) = 0 := congrFun ht 3
  refine ⟨t, flush0_2 t, ?_⟩
  rw [mem_block]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 32 ≤ (i 1).val ∧ (i 1).val < win0_2.index t (1 : Fin 4) * 32 + 32; omega
  | ⟨2, _⟩ => show win0_2.index t (2 : Fin 4) * 96 ≤ (i 2).val ∧ (i 2).val < win0_2.index t (2 : Fin 4) * 96 + 96; omega
  | ⟨3, _⟩ => show win0_2.index t (3 : Fin 4) * 96 ≤ (i 3).val ∧ (i 3).val < win0_2.index t (3 : Fin 4) * 96 + 96; omega

/-- After the run the result array is the convolution of the arrays the region finds. -/
theorem final (d : Dev nD) :
    (dats m 0 d).arrAt 2 cfg0.N = depthConv (N := 8) (C := 128) (K := 1152) rfl (V m d main_v0) (V m d main_arg1) :=
  (dats m 0 d).arrAt_eq_of_cover 2 _ (fun t _ => flushed_eq m d t) covered

/-! ## The arrays the region finds -/

/-- The first window's array, when the region is entered, is the host's pad of the input. -/
theorem entry_padded (d : Dev nD) :
    (V m d main_v0 : S8x128x98x98.Idx → F .f32)
      = padded (m ((d : Thread nD τ).loc main_arg0)) pads_S8x128x96x96_S8x128x98x98_000_000_110_110 h_S_ := by
  dsimp only [V]
  simp only [hostOps0, hostOps0_1, List.flatten_cons, List.flatten_nil, List.append_nil, List.cons_append, List.nil_append]
  after_results
  rfl

/-! ## The run -/

/-- Every weakly fair execution of the kernel's program ends with the result array at the convolution of the padded
    input with the weights, the arguments unchanged. -/
theorem run : θ_run defs (onTc (τ := τ) (main (F := F))) ⟨m, fun _ => 0, ρ⟩ fun r => ∀ d : Dev nD,
      r.2.mem ((d : Thread nD τ).loc main_v1) = depthConv (N := 8) (C := 128) (K := 1152) rfl
          (padded (m ((d : Thread nD τ).loc main_arg0)) pads_S8x128x96x96_S8x128x98x98_000_000_110_110 h_S_)
          (m ((d : Thread nD τ).loc main_arg1))
      ∧ r.2.mem ((d : Thread nD τ).loc main_arg0) = m ((d : Thread nD τ).loc main_arg0)
      ∧ r.2.mem ((d : Thread nD τ).loc main_arg1) = m ((d : Thread nD τ).loc main_arg1) :=
  (θ_run defs _ _).mono (fun r h d => ⟨(h d).1.trans ((final m d).trans (by rw [entry_padded, V_main_arg1])), (h d).2⟩)
    (run_blocks m ρ)

end Cert.KernelIdeal.ConvValue

end
-- ==== Proof.RefValue.lean ====
/-
  The reference computes the depthwise convolution of the padded input with the per-pixel weights: its result,
  element by element, is the nine products added in tap order onto the zero word.

  The reference regroups the weights [8, 1152, 96, 96] → [8, 128, 9, 96, 96] once, and for each tap k slices
  position k of the tap axis and drops it (weight row 9c + k), slices the 96×96 window of the padded input that
  starts at (k / 3, k % 3), multiplies the two and adds the product onto the running sum, which starts as an array of
  zeros. Read at one pixel that is `depthConvAt`.
-/
import proofs.«176403_j1786706395749_1_alg».proof.Proof.Gen.ReferenceIdeal.Run
import proofs.«176403_j1786706395749_1_alg».proof.Proof.Taps

noncomputable section

namespace Cert.ReferenceIdeal.ConvValue

open Cert.ReferenceIdeal Cert.ReferenceIdeal.Gen Cert.ReferenceIdeal.Value Idealize.ShloMosaic Idealize.ShloMosaic.TcCoe
open Idealize.SL.Sem Idealize.ShloMosaic.ValueIdx Cert.DepthConv

variable {F : FTy → Type} [FloatOps F]

/-- The reference's result at pixel (n, c, h, w). -/
theorem result_apply (m : (ℓ : Loc nD τ sig) → Buf (Elt F) ℓ) (d : Dev nD) (n : Fin 8) (c : Fin 128) (h w : Fin 96) :
    (res_main_v47 m d : S8x128x96x96.Idx → F .f32) (ix4 n c h w)
      = depthConvAt (N := 8) (C := 128) (K := 1152) rfl
          (padded (m ((d.tc : Thread nD τ).loc main_arg0)) pads_S8x128x96x96_S8x128x98x98_000_000_110_110 h_S_)
          (m ((d.tc : Thread nD τ).loc main_arg1)) n c h w := by
  unfold res_main_v47
  exact tapSum_of _ _ rfl
    (weightTap rfl _ 0 (by omega) _ _ _ n c h w) (shiftedRead _ 0 0 (by omega) (by omega) _ n c h w)
    (weightTap rfl _ 1 (by omega) _ _ _ n c h w) (shiftedRead _ 0 1 (by omega) (by omega) _ n c h w)
    (weightTap rfl _ 2 (by omega) _ _ _ n c h w) (shiftedRead _ 0 2 (by omega) (by omega) _ n c h w)
    (weightTap rfl _ 3 (by omega) _ _ _ n c h w) (shiftedRead _ 1 0 (by omega) (by omega) _ n c h w)
    (weightTap rfl _ 4 (by omega) _ _ _ n c h w) (shiftedRead _ 1 1 (by omega) (by omega) _ n c h w)
    (weightTap rfl _ 5 (by omega) _ _ _ n c h w) (shiftedRead _ 1 2 (by omega) (by omega) _ n c h w)
    (weightTap rfl _ 6 (by omega) _ _ _ n c h w) (shiftedRead _ 2 0 (by omega) (by omega) _ n c h w)
    (weightTap rfl _ 7 (by omega) _ _ _ n c h w) (shiftedRead _ 2 1 (by omega) (by omega) _ n c h w)
    (weightTap rfl _ 8 (by omega) _ _ _ n c h w) (shiftedRead _ 2 2 (by omega) (by omega) _ n c h w)

/-- The reference's result array is the convolution of the padded input with the weights. -/
theorem result_eq (m : (ℓ : Loc nD τ sig) → Buf (Elt F) ℓ) (d : Dev nD) :
    res_main_v47 m d = depthConv (N := 8) (C := 128) (K := 1152) rfl
      (padded (m ((d.tc : Thread nD τ).loc main_arg0)) pads_S8x128x96x96_S8x128x98x98_000_000_110_110 h_S_)
      (m ((d.tc : Thread nD τ).loc main_arg1)) := by
  funext i
  rw [eq_ix4 i]
  exact result_apply m d (i 0) (i 1) (i 2) (i 3)

end Cert.ReferenceIdeal.ConvValue

end
-- ==== Proof.lean ====
/-
  The kernel's program and its reference compute the same array: a depthwise 3×3 convolution whose weights differ at
  every pixel,

      out(n, c, h, w) = ((…((0 + W(n, 9c, h, w)·X(n, c, h, w)) + W(n, 9c+1, h, w)·X(n, c, h, w+1)) + …)
                            + W(n, 9c+8, h, w)·X(n, c, h+2, w+2)),

  X the input padded by one zero pixel on every side of the image. Both pad on the host in the same way. The
  reference then forms the nine products on the whole arrays; the kernel forms them block by block — batch b, channels
  32q … 32q + 31 at grid point (b, q) — and its 32 output blocks fill the result. In both the nine products of one pixel
  are added in the same order onto the same zero, so the two results are one function of the arguments with no law of
  arithmetic in between: nothing is asked of the inputs beyond what the claim states, and the precondition is not opened.

  Proof/Taps.lean states the convolution element and reads the two layout steps (the weight row of a tap, the shifted
  window of the padded input) at a pixel; Proof/RefValue.lean reads the reference's result through them;
  Proof/KernelValue.lean reads the kernel's stored block through them, places the block in the arrays and covers the
  result with the blocks. The kernel's idealization rewrote no operation, so `preserves` has nothing to state.
-/
import proofs.«176403_j1786706395749_1_alg».proof.Defs
import proofs.«176403_j1786706395749_1_alg».proof.Proof.Gen.Kernel
import proofs.«176403_j1786706395749_1_alg».proof.Proof.Gen.Kernel.Skeleton
import proofs.«176403_j1786706395749_1_alg».proof.Proof.Gen.Kernel.Launch
import proofs.«176403_j1786706395749_1_alg».proof.Proof.Gen.Kernel.Points
import proofs.«176403_j1786706395749_1_alg».proof.Proof.Gen.Kernel.Frame
import proofs.«176403_j1786706395749_1_alg».proof.Proof.Gen.KernelIdeal
import proofs.«176403_j1786706395749_1_alg».proof.Proof.Gen.KernelIdeal.Skeleton
import proofs.«176403_j1786706395749_1_alg».proof.Proof.Gen.KernelIdeal.Launch
import proofs.«176403_j1786706395749_1_alg».proof.Proof.Gen.KernelIdeal.Points
import proofs.«176403_j1786706395749_1_alg».proof.Proof.Gen.KernelIdeal.Frame
import proofs.«176403_j1786706395749_1_alg».proof.Proof.Gen.ReferenceIdeal
import proofs.«176403_j1786706395749_1_alg».proof.Proof.Gen.KernelIdeal.Value
import proofs.«176403_j1786706395749_1_alg».proof.Proof.Gen.ReferenceIdeal.Run
import proofs.«176403_j1786706395749_1_alg».proof.Proof.Gen.Pre_finite_inputs
import proofs.«176403_j1786706395749_1_alg».proof.Proof.KernelValue
import proofs.«176403_j1786706395749_1_alg».proof.Proof.RefValue
import Idealize.ShloMosaic.Adequacy
import Idealize.ShloMosaic.Init

noncomputable section

namespace Cert.Proof

open Idealize.ShloMosaic Idealize.ShloMosaic.TcCoe Idealize.SL.Sem

/-- The kernel's program as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as they were: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the result array at the convolution of the padded input with the weights: the kernel's by
    its blocks, the reference's by its operations read at a pixel; the two paddings are the same operation of the same
    argument. -/
theorem algebraic : Cert.algebraic_KernelIdeal_ReferenceIdeal := by
  intro m ρ m' ρ' _ hagree
  refine ⟨_, Cert.KernelIdeal.ConvValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.ConvValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
